-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S16x40, .f32⟩
  | .local _ .vmem, ⟨8, _⟩ => ⟨S2000x40, .f32⟩
  | .local _ .vmem, ⟨9, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S2000x16_S2000x16 : S2000x16.ShapeCasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S100000x40.size a
  hwx1_2 : ∀ i : grid1.Coords, EltTy.bits .f32 = 32 ∨ (Rect.block (s := S100000x40) S2000x40.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 89
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run, with its result kept.

  @main of the kernel's program is eight segments: three stretches of host operations (the edge lists with their
  self-loops, the degree count, the normalisation coefficient of every edge), the first row-blocked matrix product,
  two stretches (gather, scale, scatter-add, bias, the maximum with zero), the second row-blocked matrix product, and
  a last stretch (gather, scale, scatter-add, bias). The buffer contents at each boundary are a fold through these
  segments from the launch memory; the last boundary's contents are `W8`. Every weakly fair execution terminates,
  without a fault, in a state whose unscoped buffers hold `W8`: so the result buffer holds `W8` at the result's
  reference, and each argument array is as launched.
-/
import proofs.«166446_j20349555048560_1_alg».proof.Proof.Gen.KernelIdeal.Frame

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, with the
    result buffer at the last boundary's contents and every argument array as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Run

end
-- ==== Proof.Rows0.lean ====
/-
  The first row-blocked matrix product is the whole product  x · W1.

  The pallas_call walks the 100000-row left factor in 50 blocks of 2000 rows; at point t the body loads rows
  2000 t … 2000 t + 1999 of the left factor and the whole [512, 16] right factor, multiplies them into a zero
  accumulator, and the block is written back to rows 2000 t … 2000 t + 1999 of the result. At the ideal values a change
  of float format is the identity and a matrix product into a zero accumulator is the plain sum over the contracted
  axis, so entry (r, q) of what point r / 2000 writes is  Σ_k left (r, k) · right (k, q):  the blocks are the
  restrictions of ONE function of the two arrays, and since the 50 blocks tile the result, the result array ends
  holding that function. Nothing here depends on what the arrays hold when the region is entered: the statement is
  for any entry contents `V`.
-/
import proofs.«166446_j20349555048560_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Rows0

open Idealize.ShloMosaic Idealize.ShloMosaic.TcCoe Idealize.SL.Sem
open Idealize.ShloMosaic.Pipeline (Dat)
open Cert.KernelIdeal Cert.KernelIdeal.Gen

/-! ## The product, index by index -/

/-- Entry (r, q) of the product of a [100000, 512] array with a [512, 16] array over the extended reals:
    row r of the left factor against column q of the right one. -/
def rowsTimes (x : S100000x512.Idx → EReal) (w : S512x16.Idx → EReal) : S100000x16.Idx → EReal :=
  fun i => ∑ k : Fin 512, x (ValueIdx.ix2 (n0 := 100000) (n1 := 512) (i 0) k) * w (ValueIdx.ix2 (n0 := 512) (n1 := 16) k (i 1))

/-! ## One block's product at an index -/

/-- The dot's left operand index at output (r, q) and contraction coordinate k is (r, k): its row is the output's. -/
theorem lhs_row (j : S2000x16.Idx) (q : dot_S2000x512_S512x16_S2000x16_1_0_0_1_n_n.contr.Idx) :
    (dot_S2000x512_S512x16_S2000x16_1_0_0_1_n_n.lhsIdx j q 0).val = (j 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
/-- … and its column is the contraction coordinate. -/
theorem lhs_col (j : S2000x16.Idx) (q : dot_S2000x512_S512x16_S2000x16_1_0_0_1_n_n.contr.Idx) :
    (dot_S2000x512_S512x16_S2000x16_1_0_0_1_n_n.lhsIdx j q 1).val = (q ⟨0, by decide⟩).val :=
  dot_S2000x512_S512x16_S2000x16_1_0_0_1_n_n.lhsIdx_val_of_single rfl j q
/-- The right operand index is (k, q): its row is the contraction coordinate, -/
theorem rhs_row (j : S2000x16.Idx) (q : dot_S2000x512_S512x16_S2000x16_1_0_0_1_n_n.contr.Idx) :
    (dot_S2000x512_S512x16_S2000x16_1_0_0_1_n_n.rhsIdx j q 0).val = (q ⟨0, by decide⟩).val :=
  dot_S2000x512_S512x16_S2000x16_1_0_0_1_n_n.rhsIdx_val_of_single rfl j q
/-- … and its column is the output's. -/
theorem rhs_col (j : S2000x16.Idx) (q : dot_S2000x512_S512x16_S2000x16_1_0_0_1_n_n.contr.Idx) :
    (dot_S2000x512_S512x16_S2000x16_1_0_0_1_n_n.rhsIdx j q 1).val = (j 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

/-- What the body stores, at an index of the block: the loaded rows against the loaded right factor, summed over the
    contracted axis (the format changes are the identity, the accumulator is zero). -/
theorem pay_apply (x0 : Vec Ideal S2000x512 .f32) (x1 : Vec Ideal S512x16 .f32) (j : S2000x16.Idx) :
    k0_pay1 (F := Ideal) x0 x1 j
      = ∑ k : Fin 512, x0 (ValueIdx.ix2 (n0 := 2000) (n1 := 512) (j 0) k) * x1 (ValueIdx.ix2 (n0 := 512) (n1 := 16) k (j 1)) := by
  unfold k0_pay1
  refine (Ideal.matmul_constant_zero_apply dot_S2000x512_S512x16_S2000x16_1_0_0_1_n_n none _ _ j).trans ?_
  rw [← Equiv.sum_comp (ValueIdx.contrEquiv1 dot_S2000x512_S512x16_S2000x16_1_0_0_1_n_n 512 rfl rfl).symm]
  refine Finset.sum_congr rfl fun k _ => ?_
  have hk := ValueIdx.contrEquiv1_symm_val dot_S2000x512_S512x16_S2000x16_1_0_0_1_n_n 512 rfl rfl k
  have el : dot_S2000x512_S512x16_S2000x16_1_0_0_1_n_n.lhsIdx j ((ValueIdx.contrEquiv1 dot_S2000x512_S512x16_S2000x16_1_0_0_1_n_n 512 rfl rfl).symm k)
      = ValueIdx.ix2 (n0 := 2000) (n1 := 512) (j 0) k := funext fun a => Fin.ext (by
    match a with
    | ⟨0, _⟩ => exact lhs_row _ _
    | ⟨1, _⟩ => exact (lhs_col _ _).trans hk)
  have er : dot_S2000x512_S512x16_S2000x16_1_0_0_1_n_n.rhsIdx j ((ValueIdx.contrEquiv1 dot_S2000x512_S512x16_S2000x16_1_0_0_1_n_n 512 rfl rfl).symm k)
      = ValueIdx.ix2 (n0 := 512) (n1 := 16) k (j 1) := funext fun a => Fin.ext (by
    match a with
    | ⟨0, _⟩ => exact (rhs_row _ _).trans hk
    | ⟨1, _⟩ => exact rhs_col _ _)
  rw [el, er]
  rfl

/-! ## The blocks as rows of the arrays -/

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the left factor's and the result's block row is the point, every other block
    coordinate is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t is rows 2000 t … 2000 t + 1999 of the left array. -/
theorem left_block (c : Dev nD) (t : Fin cfg0.N) (y : S2000x512.Idx) (i : S100000x512.Idx)
    (h0 : (i 0).val = 2000 * t.val + (y 0).val) (h1 : (i 1).val = (y 1).val) :
    (iblk0 V c 0 t : Vec Ideal S2000x512 .f32) y = (V c main_arg0 : S100000x512.Idx → EReal) i := by
  obtain ⟨e0, e1, -, -, -, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- The right factor's block at every point is the whole right array. -/
theorem right_block (c : Dev nD) (t : Fin cfg0.N) (y : S512x16.Idx) (i : S512x16.Idx)
    (h0 : (i 0).val = (y 0).val) (h1 : (i 1).val = (y 1).val) :
    (iblk0 V c 1 t : Vec Ideal S512x16 .f32) y = (V c main_arg2 : S512x16.Idx → EReal) i := by
  obtain ⟨-, -, e2, e3, -, -⟩ := idx_facts t
  unfold iblk0
  rw [View.read_apply]
  show V c main_arg2 _ = V c main_arg2 _
  refine congrArg _ ?_
  funext a
  apply Fin.ext
  match a with
  | ⟨0, _⟩ => show win0_1.index t (0 : Fin 2) * 512 + 1 * (y 0).val = (i 0).val; rw [e2, h0]; omega
  | ⟨1, _⟩ => show win0_1.index t (1 : Fin 2) * 16 + 1 * (y 1).val = (i 1).val; rw [e3, h1]; omega

/-! ## What a point writes back, and the array after the run -/

/-- What point t writes back is block t of the product of the two arrays as the region finds them. -/
theorem flushed_eq (c : Dev nD) (t : Fin cfg0.N) :
    (dat0 V c).flushed 2 t
      = ((cfg0.win 2).blk t).view.read (Elt Ideal) (rowsTimes (V c main_arg0) (V c main_arg2)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S2000x512) hz, View.ld_unit_zero (S := S512x16) hz]
  funext j
  rw [View.read_apply]
  show k0_pay1 (F := Ideal) (iblk0 V c 0 t) (iblk0 V c 1 t) j = _
  refine (pay_apply _ _ j).trans ?_
  unfold rowsTimes
  refine Finset.sum_congr rfl fun k _ => ?_
  have hr : ((((cfg0.win 2).blk t).view.emb j) 0).val = 2000 * t.val + (j 0).val := by
    show win0_2.index t (0 : Fin 2) * 2000 + 1 * (j 0).val = _
    rw [e4]; omega
  have hq : ((((cfg0.win 2).blk t).view.emb j) 1).val = (j 1).val := by
    show win0_2.index t (1 : Fin 2) * 16 + 1 * (j 1).val = _
    rw [e5]; omega
  refine congrArg₂ (fun a b : EReal => a * b) ?_ ?_
  · exact left_block V c t (ValueIdx.ix2 (n0 := 2000) (n1 := 512) (j 0) k) _ hr rfl
  · exact right_block V c t (ValueIdx.ix2 (n0 := 512) (n1 := 16) k (j 1)) _ rfl hq

/-- An index of the result array is in point t's block iff each coordinate is in the block's range on its axis. -/
theorem mem_blk (t : Fin cfg0.N) (i : S100000x16.Idx) :
    i ∈ ((cfg0.win 2).blk t).view.set
      ↔ ∀ a : Fin 2, win0_2.index t a * S2000x16.size a ≤ (i a).val ∧ (i a).val < win0_2.index t a * S2000x16.size a + S2000x16.size a := by
  show i ∈ ((View.whole main_v30).slice (win0_2.rect t)).set ↔ _
  rw [View.set_slice_whole, Rect.mem_set_unit]
  exact Iff.rfl

/-- Row r of the result lies in the block of point r / 2000, which is written back: the blocks cover the array. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  have ht : (i 0).val / 2000 < cfg0.N := by rw [hN]; omega
  obtain ⟨-, -, -, -, e4, e5⟩ := idx_facts ⟨(i 0).val / 2000, ht⟩
  refine ⟨⟨(i 0).val / 2000, ht⟩, flush0_2 _, ?_⟩
  rw [mem_blk]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 16 ≤ (i 1).val
      ∧ (i 1).val < win0_2.index ⟨(i 0).val / 2000, ht⟩ (1 : Fin 2) * 16 + 16
    rw [e5]
    omega

/-- The result array after the region: the product of the two arrays the region was entered with. -/
theorem array_eq (c : Dev nD) :
    (dat0 V c).arrAt 2 cfg0.N = rowsTimes (V c main_arg0) (V c main_arg2) :=
  (dat0 V c).arrAt_eq_of_cover 2 (rowsTimes (V c main_arg0) (V c main_arg2)) (fun t _ => flushed_eq V c t) cover

end Cert.KernelIdeal.Rows0

end
-- ==== Proof.Rows1.lean ====
/-
  The second row-blocked matrix product is the whole product  h · W2.

  The pallas_call walks the 100000-row left factor in 50 blocks of 2000 rows; at point t the body loads rows
  2000 t … 2000 t + 1999 of the left factor and the whole [16, 40] right factor, multiplies them into a zero
  accumulator, and the block is written back to rows 2000 t … 2000 t + 1999 of the result. At the ideal values a change
  of float format is the identity and a matrix product into a zero accumulator is the plain sum over the contracted
  axis, so entry (r, q) of what point r / 2000 writes is  Σ_k left (r, k) · right (k, q):  the blocks are the
  restrictions of ONE function of the two arrays, and since the 50 blocks tile the result, the result array ends
  holding that function. Nothing here depends on what the arrays hold when the region is entered: the statement is
  for any entry contents `V`.
-/
import proofs.«166446_j20349555048560_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Rows1

open Idealize.ShloMosaic Idealize.ShloMosaic.TcCoe Idealize.SL.Sem
open Idealize.ShloMosaic.Pipeline (Dat)
open Cert.KernelIdeal Cert.KernelIdeal.Gen

/-! ## The product, index by index -/

/-- Entry (r, q) of the product of a [100000, 16] array with a [16, 40] array over the extended reals:
    row r of the left factor against column q of the right one. -/
def rowsTimes (x : S100000x16.Idx → EReal) (w : S16x40.Idx → EReal) : S100000x40.Idx → EReal :=
  fun i => ∑ k : Fin 16, x (ValueIdx.ix2 (n0 := 100000) (n1 := 16) (i 0) k) * w (ValueIdx.ix2 (n0 := 16) (n1 := 40) k (i 1))

/-! ## One block's product at an index -/

/-- The dot's left operand index at output (r, q) and contraction coordinate k is (r, k): its row is the output's. -/
theorem lhs_row (j : S2000x40.Idx) (q : dot_S2000x16_S16x40_S2000x40_1_0_0_1_n_n.contr.Idx) :
    (dot_S2000x16_S16x40_S2000x40_1_0_0_1_n_n.lhsIdx j q 0).val = (j 0).val := by
  unfold DotDims.lhsIdx
  rw [dif_neg (show ¬(0 : Fin S2000x16.rank) ∈ dot_S2000x16_S16x40_S2000x40_1_0_0_1_n_n.lhsBatch by decide), dif_pos (show (0 : Fin S2000x16.rank) ∈ dot_S2000x16_S16x40_S2000x40_1_0_0_1_n_n.lhsNonContracting by decide)]
  rfl
/-- … and its column is the contraction coordinate. -/
theorem lhs_col (j : S2000x40.Idx) (q : dot_S2000x16_S16x40_S2000x40_1_0_0_1_n_n.contr.Idx) :
    (dot_S2000x16_S16x40_S2000x40_1_0_0_1_n_n.lhsIdx j q 1).val = (q ⟨0, by decide⟩).val :=
  dot_S2000x16_S16x40_S2000x40_1_0_0_1_n_n.lhsIdx_val_of_single rfl j q
/-- The right operand index is (k, q): its row is the contraction coordinate, -/
theorem rhs_row (j : S2000x40.Idx) (q : dot_S2000x16_S16x40_S2000x40_1_0_0_1_n_n.contr.Idx) :
    (dot_S2000x16_S16x40_S2000x40_1_0_0_1_n_n.rhsIdx j q 0).val = (q ⟨0, by decide⟩).val :=
  dot_S2000x16_S16x40_S2000x40_1_0_0_1_n_n.rhsIdx_val_of_single rfl j q
/-- … and its column is the output's. -/
theorem rhs_col (j : S2000x40.Idx) (q : dot_S2000x16_S16x40_S2000x40_1_0_0_1_n_n.contr.Idx) :
    (dot_S2000x16_S16x40_S2000x40_1_0_0_1_n_n.rhsIdx j q 1).val = (j 1).val := by
  unfold DotDims.rhsIdx
  rw [dif_neg (show ¬(1 : Fin S16x40.rank) ∈ dot_S2000x16_S16x40_S2000x40_1_0_0_1_n_n.rhsBatch by decide), dif_pos (show (1 : Fin S16x40.rank) ∈ dot_S2000x16_S16x40_S2000x40_1_0_0_1_n_n.rhsNonContracting by decide)]
  rfl

/-- What the body stores, at an index of the block: the loaded rows against the loaded right factor, summed over the
    contracted axis (the format changes are the identity, the accumulator is zero). -/
theorem pay_apply (x0 : Vec Ideal S2000x16 .f32) (x1 : Vec Ideal S16x40 .f32) (j : S2000x40.Idx) :
    k1_pay1 (F := Ideal) x0 x1 j
      = ∑ k : Fin 16, x0 (ValueIdx.ix2 (n0 := 2000) (n1 := 16) (j 0) k) * x1 (ValueIdx.ix2 (n0 := 16) (n1 := 40) k (j 1)) := by
  unfold k1_pay1
  rw [shapeCast_self]
  refine (Ideal.matmul_constant_zero_apply dot_S2000x16_S16x40_S2000x40_1_0_0_1_n_n none _ _ j).trans ?_
  rw [← Equiv.sum_comp (ValueIdx.contrEquiv1 dot_S2000x16_S16x40_S2000x40_1_0_0_1_n_n 16 rfl rfl).symm]
  refine Finset.sum_congr rfl fun k _ => ?_
  have hk := ValueIdx.contrEquiv1_symm_val dot_S2000x16_S16x40_S2000x40_1_0_0_1_n_n 16 rfl rfl k
  have el : dot_S2000x16_S16x40_S2000x40_1_0_0_1_n_n.lhsIdx j ((ValueIdx.contrEquiv1 dot_S2000x16_S16x40_S2000x40_1_0_0_1_n_n 16 rfl rfl).symm k)
      = ValueIdx.ix2 (n0 := 2000) (n1 := 16) (j 0) k := funext fun a => Fin.ext (by
    match a with
    | ⟨0, _⟩ => exact lhs_row _ _
    | ⟨1, _⟩ => exact (lhs_col _ _).trans hk)
  have er : dot_S2000x16_S16x40_S2000x40_1_0_0_1_n_n.rhsIdx j ((ValueIdx.contrEquiv1 dot_S2000x16_S16x40_S2000x40_1_0_0_1_n_n 16 rfl rfl).symm k)
      = ValueIdx.ix2 (n0 := 16) (n1 := 40) k (j 1) := funext fun a => Fin.ext (by
    match a with
    | ⟨0, _⟩ => exact (rhs_row _ _).trans hk
    | ⟨1, _⟩ => exact rhs_col _ _)
  rw [el, er]
  rfl

/-! ## The blocks as rows of the arrays -/

variable (V : (c : Dev nD) → (b : Ref sig .tc) → Buf (Elt Ideal) ((c : Thread nD τ).loc b))

theorem hz : (![0, 0] : Fin 2 → Nat) = fun _ => 0 := funext fun a => by fin_cases a <;> rfl

/-- The three index maps over the grid: the left factor's and the result's block row is the point, every other block
    coordinate is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left factor's block at point t is rows 2000 t … 2000 t + 1999 of the left array. -/
theorem left_block (c : Dev nD) (t : Fin cfg1.N) (y : S2000x16.Idx) (i : S100000x16.Idx)
    (h0 : (i 0).val = 2000 * t.val + (y 0).val) (h1 : (i 1).val = (y 1).val) :
    (iblk1 V c 0 t : Vec Ideal S2000x16 .f32) y = (V c main_v47 : S100000x16.Idx → EReal) i := by
  obtain ⟨e0, e1, -, -, -, -⟩ := idx_facts t
  unfold iblk1
  rw [View.read_apply]
  show V c main_v47 _ = V c main_v47 _
  refine congrArg _ ?_
  funext a
  apply Fin.ext
  match a with
  | ⟨0, _⟩ => show win1_0.index t (0 : Fin 2) * 2000 + 1 * (y 0).val = (i 0).val; rw [e0, h0]; omega
  | ⟨1, _⟩ => show win1_0.index t (1 : Fin 2) * 16 + 1 * (y 1).val = (i 1).val; rw [e1, h1]; omega

/-- The right factor's block at every point is the whole right array. -/
theorem right_block (c : Dev nD) (t : Fin cfg1.N) (y : S16x40.Idx) (i : S16x40.Idx)
    (h0 : (i 0).val = (y 0).val) (h1 : (i 1).val = (y 1).val) :
    (iblk1 V c 1 t : Vec Ideal S16x40 .f32) y = (V c main_arg4 : S16x40.Idx → EReal) i := by
  obtain ⟨-, -, e2, e3, -, -⟩ := idx_facts t
  unfold iblk1
  rw [View.read_apply]
  show V c main_arg4 _ = V c main_arg4 _
  refine congrArg _ ?_
  funext a
  apply Fin.ext
  match a with
  | ⟨0, _⟩ => show win1_1.index t (0 : Fin 2) * 16 + 1 * (y 0).val = (i 0).val; rw [e2, h0]; omega
  | ⟨1, _⟩ => show win1_1.index t (1 : Fin 2) * 40 + 1 * (y 1).val = (i 1).val; rw [e3, h1]; omega

/-! ## What a point writes back, and the array after the run -/

/-- What point t writes back is block t of the product of the two arrays as the region finds them. -/
theorem flushed_eq (c : Dev nD) (t : Fin cfg1.N) :
    (dat1 V c).flushed 2 t
      = ((cfg1.win 2).blk t).view.read (Elt Ideal) (rowsTimes (V c main_v47) (V c main_arg4)) := by
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S2000x16) hz, View.ld_unit_zero (S := S16x40) hz]
  funext j
  rw [View.read_apply]
  show k1_pay1 (F := Ideal) (iblk1 V c 0 t) (iblk1 V c 1 t) j = _
  refine (pay_apply _ _ j).trans ?_
  unfold rowsTimes
  refine Finset.sum_congr rfl fun k _ => ?_
  have hr : ((((cfg1.win 2).blk t).view.emb j) 0).val = 2000 * t.val + (j 0).val := by
    show win1_2.index t (0 : Fin 2) * 2000 + 1 * (j 0).val = _
    rw [e4]; omega
  have hq : ((((cfg1.win 2).blk t).view.emb j) 1).val = (j 1).val := by
    show win1_2.index t (1 : Fin 2) * 40 + 1 * (j 1).val = _
    rw [e5]; omega
  refine congrArg₂ (fun a b : EReal => a * b) ?_ ?_
  · exact left_block V c t (ValueIdx.ix2 (n0 := 2000) (n1 := 16) (j 0) k) _ hr rfl
  · exact right_block V c t (ValueIdx.ix2 (n0 := 16) (n1 := 40) k (j 1)) _ rfl hq

/-- An index of the result array is in point t's block iff each coordinate is in the block's range on its axis. -/
theorem mem_blk (t : Fin cfg1.N) (i : S100000x40.Idx) :
    i ∈ ((cfg1.win 2).blk t).view.set
      ↔ ∀ a : Fin 2, win1_2.index t a * S2000x40.size a ≤ (i a).val ∧ (i a).val < win1_2.index t a * S2000x40.size a + S2000x40.size a := by
  show i ∈ ((View.whole main_v48).slice (win1_2.rect t)).set ↔ _
  rw [View.set_slice_whole, Rect.mem_set_unit]
  exact Iff.rfl

/-- Row r of the result lies in the block of point r / 2000, which is written back: the blocks cover the array. -/
theorem cover (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : cfg1.N = 50 := N_1
  have ht : (i 0).val / 2000 < cfg1.N := by rw [hN]; omega
  obtain ⟨-, -, -, -, e4, e5⟩ := idx_facts ⟨(i 0).val / 2000, ht⟩
  refine ⟨⟨(i 0).val / 2000, ht⟩, flush1_2 _, ?_⟩
  rw [mem_blk]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, ht⟩ (1 : Fin 2) * 40 ≤ (i 1).val
      ∧ (i 1).val < win1_2.index ⟨(i 0).val / 2000, ht⟩ (1 : Fin 2) * 40 + 40
    rw [e5]
    omega

/-- The result array after the region: the product of the two arrays the region was entered with. -/
theorem array_eq (c : Dev nD) :
    (dat1 V c).arrAt 2 cfg1.N = rowsTimes (V c main_v47) (V c main_arg4) :=
  (dat1 V c).arrAt_eq_of_cover 2 (rowsTimes (V c main_v47) (V c main_arg4)) (fun t _ => flushed_eq V c t) cover

end Cert.KernelIdeal.Rows1

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.KernelValue.lean ====
/-
  What the idealized kernel's result buffer holds: the reference's value.

  The two programs run the same host operations around their matrix products. From the edge list alone both compute
  the source and the destination of every edge (the given edges followed by one self-loop per node), the in-degree of
  every node by a scatter-add of ones, its inverse square root where the degree is positive and zero elsewhere, and
  from these the coefficient  dinv[src] · dinv[dst]  of every edge. A layer then takes a [100000, f] array t, gathers
  row src(e) of t for every edge e, scales it by the edge's coefficient, scatter-adds the scaled rows into the rows
  dst(e) of a zero array, and adds the bias; after the first layer the maximum with zero is taken.

  So the kernel's result is  layer₂ (h · W2)  with  h = max (layer₁ (x · W1), 0),  where each product is computed by
  a pallas_call in 50 row blocks, and the reference's result is the same expression with each product one
  dot_general. The buffer contents at the boundaries of the kernel's eight segments are read back one boundary at a
  time: at each boundary the few buffers a later segment reads are named by the reference's own stage functions of
  the argument arrays — the edge lists and coefficients once, before the first product, and carried unchanged
  through every later segment, which writes none of them. The two products are the reference's dot_general stages
  because a row-blocked product into a zero accumulator is, index by index, the sum over the contracted axis that
  dot_general is at the ideal values.
-/
import proofs.«166446_j20349555048560_1_alg».proof.Proof.Gen.KernelIdeal.Frame
import proofs.«166446_j20349555048560_1_alg».proof.Proof.Rows0
import proofs.«166446_j20349555048560_1_alg».proof.Proof.Rows1
import proofs.«166446_j20349555048560_1_alg».proof.Proof.RefRead
import proofs.«166446_j20349555048560_1_alg».proof.Proof.LibTypedRefs

noncomputable section

namespace Cert.KernelIdeal.Result

open Idealize.ShloMosaic Idealize.ShloMosaic.TcCoe Idealize.SL.Sem Idealize.ShloMosaic.StableHlo
open Cert.KernelIdeal Cert.KernelIdeal.Gen
open Cert.ReferenceIdeal.ReadP (val_main_v3 val_main_v6 val_main_v29 val_main_v30 val_main_v47 val_main_v48 val_main_v64
  val_main_v30_apply val_main_v48_apply lidx_main_v30 ridx_main_v30 lidx_main_v48 ridx_main_v48)

/-! ## The two products are the reference's -/

/-- x · W1, entry by entry, is the reference's first dot_general: the same sum over the 512 contracted columns. -/
theorem prod0_eq (x0 : S100000x512.Idx → EReal) (x2 : S512x16.Idx → EReal) :
    Rows0.rowsTimes x0 x2 = val_main_v30 (F := Ideal) x0 x2 := by
  funext i
  refine Eq.trans ?_ (val_main_v30_apply x0 x2 i).symm
  unfold Rows0.rowsTimes
  refine Finset.sum_congr rfl fun k _ => ?_
  have el : ValueIdx.ix2 (n0 := 100000) (n1 := 512) (i 0) k = lidx_main_v30 i k :=
    funext fun a => by match a with | ⟨0, _⟩ => rfl | ⟨1, _⟩ => rfl
  have er : ValueIdx.ix2 (n0 := 512) (n1 := 16) k (i 1) = ridx_main_v30 i k :=
    funext fun a => by match a with | ⟨0, _⟩ => rfl | ⟨1, _⟩ => rfl
  rw [el, er]

/-- h · W2, entry by entry, is the reference's second dot_general, h the first layer's output. -/
theorem prod1_eq (x0 : S100000x512.Idx → EReal) (x1 : S2x3200000.Idx → BitVec 32) (x2 : S512x16.Idx → EReal)
    (x3 : S16.Idx → EReal) (x4 : S16x40.Idx → EReal) :
    Rows1.rowsTimes (val_main_v47 (F := Ideal) x0 x1 x2 x3) x4 = val_main_v48 (F := Ideal) x0 x1 x2 x3 x4 := by
  funext i
  refine Eq.trans ?_ (val_main_v48_apply x0 x1 x2 x3 x4 i).symm
  unfold Rows1.rowsTimes
  refine Finset.sum_congr rfl fun k _ => ?_
  have el : ValueIdx.ix2 (n0 := 100000) (n1 := 16) (i 0) k = lidx_main_v48 i k :=
    funext fun a => by match a with | ⟨0, _⟩ => rfl | ⟨1, _⟩ => rfl
  have er : ValueIdx.ix2 (n0 := 16) (n1 := 40) k (i 1) = ridx_main_v48 i k :=
    funext fun a => by match a with | ⟨0, _⟩ => rfl | ⟨1, _⟩ => rfl
  rw [el, er]

variable (m : (ℓ : Loc nD τ sig) → Buf (Elt Ideal) ℓ) (ρ : Dev nD → PrngReg)

/-- Reads one buffer back through stretches of host operations: every operation's result at its own buffer is its
    function of its operands' contents, any other buffer is as it was; a value carried through a called function's
    typed references is the value. -/
local macro "read_back" : tactic =>
  `(tactic| (after_results_simp <;> (repeat (first | rw [TRef.ofBuf_self] | rw [TRef.toBuf_self]))))

/-! ## When the first product is entered: the edge lists and coefficients, and the arguments untouched -/

set_option maxRecDepth 100000 in
set_option maxHeartbeats 4000000 in
/-- Before the first product: the source node of every edge (the given edges, then one self-loop per node), as the reference computes it from the edge list. -/
theorem entry0_src (c : Dev nD) :
    W3 m ρ c (Proc.devRef .tc main_v3) = val_main_v3 (F := Ideal) (m ((c : Thread nD τ).loc main_arg1)) := by
  show StableHlo.after hostOps0_2 (StableHlo.after hostOps0_1 (StableHlo.after hostOps0 (W0 m ρ c))) (Proc.devRef .tc main_v3) = _
  read_back <;> rfl

set_option maxRecDepth 100000 in
set_option maxHeartbeats 4000000 in
/-- Before the first product: the destination node of every edge, as the reference computes it from the edge list. -/
theorem entry0_dst (c : Dev nD) :
    W3 m ρ c (Proc.devRef .tc main_v6) = val_main_v6 (F := Ideal) (m ((c : Thread nD τ).loc main_arg1)) := by
  show StableHlo.after hostOps0_2 (StableHlo.after hostOps0_1 (StableHlo.after hostOps0 (W0 m ρ c))) (Proc.devRef .tc main_v6) = _
  read_back <;> rfl

set_option maxRecDepth 100000 in
set_option maxHeartbeats 4000000 in
/-- Before the first product: the normalisation coefficient of every edge, as the reference computes it from the edge list. -/
theorem entry0_norm (c : Dev nD) :
    W3 m ρ c (Proc.devRef .tc main_v29) = val_main_v29 (F := Ideal) (m ((c : Thread nD τ).loc main_arg1)) := by
  show StableHlo.after hostOps0_2 (StableHlo.after hostOps0_1 (StableHlo.after hostOps0 (W0 m ρ c))) (Proc.devRef .tc main_v29) = _
  read_back <;> rfl

/-- No host operation before the first product writes argument 0. -/
theorem entry0_arg0 (c : Dev nD) :
    W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  read_back <;> rfl

/-- No host operation before the first product writes argument 2. -/
theorem entry0_arg2 (c : Dev nD) :
    W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  read_back <;> rfl

/-- No host operation before the first product writes argument 3. -/
theorem entry0_arg3 (c : Dev nD) :
    W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  read_back <;> rfl

/-- No host operation before the first product writes argument 4. -/
theorem entry0_arg4 (c : Dev nD) :
    W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  read_back <;> rfl

/-- No host operation before the first product writes argument 5. -/
theorem entry0_arg5 (c : Dev nD) :
    W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  read_back <;> rfl

/-! ## After the first product -/

/-- The first pallas_call leaves  x · W1  in its result array: the reference's first dot_general. -/
theorem exit0_prod (c : Dev nD) :
    W4 m ρ c (Proc.devRef .tc main_v30) = val_main_v30 (F := Ideal) (m ((c : Thread nD τ).loc main_arg0)) (m ((c : Thread nD τ).loc main_arg2)) := by
  refine (W4_arr m ρ c 2).trans ((Rows0.array_eq (V3 m ρ) c).trans ?_)
  rw [show V3 m ρ c main_arg0 = m ((c : Thread nD τ).loc main_arg0) from entry0_arg0 m ρ c,
    show V3 m ρ c main_arg2 = m ((c : Thread nD τ).loc main_arg2) from entry0_arg2 m ρ c]
  exact prod0_eq _ _

/-- The region writes only its result array: the source node of every edge (the given edges, then one self-loop per node) is as before it. -/
theorem exit0_src (c : Dev nD) :
    W4 m ρ c (Proc.devRef .tc main_v3) = val_main_v3 (F := Ideal) (m ((c : Thread nD τ).loc main_arg1)) :=
  (W4_of_ne m ρ c main_v3 (by decide)).trans (entry0_src m ρ c)

/-- The region writes only its result array: the destination node of every edge is as before it. -/
theorem exit0_dst (c : Dev nD) :
    W4 m ρ c (Proc.devRef .tc main_v6) = val_main_v6 (F := Ideal) (m ((c : Thread nD τ).loc main_arg1)) :=
  (W4_of_ne m ρ c main_v6 (by decide)).trans (entry0_dst m ρ c)

/-- The region writes only its result array: the normalisation coefficient of every edge is as before it. -/
theorem exit0_norm (c : Dev nD) :
    W4 m ρ c (Proc.devRef .tc main_v29) = val_main_v29 (F := Ideal) (m ((c : Thread nD τ).loc main_arg1)) :=
  (W4_of_ne m ρ c main_v29 (by decide)).trans (entry0_norm m ρ c)

theorem exit0_arg3 (c : Dev nD) :
    W4 m ρ c (Proc.devRef .tc main_arg3) = m ((c : Thread nD τ).loc main_arg3) :=
  (W4_of_ne m ρ c main_arg3 (by decide)).trans (entry0_arg3 m ρ c)

theorem exit0_arg4 (c : Dev nD) :
    W4 m ρ c (Proc.devRef .tc main_arg4) = m ((c : Thread nD τ).loc main_arg4) :=
  (W4_of_ne m ρ c main_arg4 (by decide)).trans (entry0_arg4 m ρ c)

theorem exit0_arg5 (c : Dev nD) :
    W4 m ρ c (Proc.devRef .tc main_arg5) = m ((c : Thread nD τ).loc main_arg5) :=
  (W4_of_ne m ρ c main_arg5 (by decide)).trans (entry0_arg5 m ρ c)

/-! ## When the second product is entered -/

/-- The first layer's output h: the gather of the rows of  x · W1  at the edges' sources, scaled by the edges'
    coefficients, scatter-added at their destinations, the bias added, the maximum with zero taken — the reference's
    own operations on the reference's own product, edge lists and coefficients. -/
theorem entry1_hidden (c : Dev nD) :
    W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) := by
  show StableHlo.after hostOps1_1 (StableHlo.after hostOps1 (W4 m ρ c)) (Proc.devRef .tc main_v47) = _
  read_back
  rw [exit0_prod m ρ c, exit0_src m ρ c, exit0_dst m ρ c, exit0_norm m ρ c, exit0_arg3 m ρ c]
  rfl

/-- The first layer's host operations do not write the source node of every edge (the given edges, then one self-loop per node). -/
theorem entry1_src (c : Dev nD) :
    W6 m ρ c (Proc.devRef .tc main_v3) = val_main_v3 (F := Ideal) (m ((c : Thread nD τ).loc main_arg1)) := by
  show StableHlo.after hostOps1_1 (StableHlo.after hostOps1 (W4 m ρ c)) (Proc.devRef .tc main_v3) = _
  read_back
  exact exit0_src m ρ c

/-- The first layer's host operations do not write the destination node of every edge. -/
theorem entry1_dst (c : Dev nD) :
    W6 m ρ c (Proc.devRef .tc main_v6) = val_main_v6 (F := Ideal) (m ((c : Thread nD τ).loc main_arg1)) := by
  show StableHlo.after hostOps1_1 (StableHlo.after hostOps1 (W4 m ρ c)) (Proc.devRef .tc main_v6) = _
  read_back
  exact exit0_dst m ρ c

/-- The first layer's host operations do not write the normalisation coefficient of every edge. -/
theorem entry1_norm (c : Dev nD) :
    W6 m ρ c (Proc.devRef .tc main_v29) = val_main_v29 (F := Ideal) (m ((c : Thread nD τ).loc main_arg1)) := by
  show StableHlo.after hostOps1_1 (StableHlo.after hostOps1 (W4 m ρ c)) (Proc.devRef .tc main_v29) = _
  read_back
  exact exit0_norm m ρ c

theorem entry1_arg4 (c : Dev nD) :
    W6 m ρ c (Proc.devRef .tc main_arg4) = m ((c : Thread nD τ).loc main_arg4) := by
  show StableHlo.after hostOps1_1 (StableHlo.after hostOps1 (W4 m ρ c)) (Proc.devRef .tc main_arg4) = _
  read_back
  exact exit0_arg4 m ρ c

theorem entry1_arg5 (c : Dev nD) :
    W6 m ρ c (Proc.devRef .tc main_arg5) = m ((c : Thread nD τ).loc main_arg5) := by
  show StableHlo.after hostOps1_1 (StableHlo.after hostOps1 (W4 m ρ c)) (Proc.devRef .tc main_arg5) = _
  read_back
  exact exit0_arg5 m ρ c

/-! ## After the second product -/

/-- The second pallas_call leaves  h · W2  in its result array: the reference's second dot_general. -/
theorem exit1_prod (c : Dev nD) :
    W7 m ρ c (Proc.devRef .tc main_v48) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Rows1.array_eq (V6 m ρ) c).trans ?_)
  rw [show V6 m ρ c main_v47 = val_main_v47 (F := Ideal) (m ((c : Thread nD τ).loc main_arg0)) (m ((c : Thread nD τ).loc main_arg1)) (m ((c : Thread nD τ).loc main_arg2)) (m ((c : Thread nD τ).loc main_arg3)) from entry1_hidden m ρ c,
    show V6 m ρ c main_arg4 = m ((c : Thread nD τ).loc main_arg4) from entry1_arg4 m ρ c]
  exact prod1_eq _ _ _ _ _

theorem exit1_src (c : Dev nD) :
    W7 m ρ c (Proc.devRef .tc main_v3) = val_main_v3 (F := Ideal) (m ((c : Thread nD τ).loc main_arg1)) :=
  (W7_of_ne m ρ c main_v3 (by decide)).trans (entry1_src m ρ c)

theorem exit1_dst (c : Dev nD) :
    W7 m ρ c (Proc.devRef .tc main_v6) = val_main_v6 (F := Ideal) (m ((c : Thread nD τ).loc main_arg1)) :=
  (W7_of_ne m ρ c main_v6 (by decide)).trans (entry1_dst m ρ c)

theorem exit1_norm (c : Dev nD) :
    W7 m ρ c (Proc.devRef .tc main_v29) = val_main_v29 (F := Ideal) (m ((c : Thread nD τ).loc main_arg1)) :=
  (W7_of_ne m ρ c main_v29 (by decide)).trans (entry1_norm m ρ c)

theorem exit1_arg5 (c : Dev nD) :
    W7 m ρ c (Proc.devRef .tc main_arg5) = m ((c : Thread nD τ).loc main_arg5) :=
  (W7_of_ne m ρ c main_arg5 (by decide)).trans (entry1_arg5 m ρ c)

/-! ## The result -/

/-- The last boundary's contents at the result buffer: the second layer's operations on  h · W2  — the reference's
    result as a function of the six argument arrays. -/
theorem result_eq (c : Dev nD) :
    W8 m ρ c (Proc.devRef .tc main_v64) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps2 (W7 m ρ c) (Proc.devRef .tc main_v64) = _
  read_back
  rw [exit1_prod m ρ c, exit1_src m ρ c, exit1_dst m ρ c, exit1_norm m ρ c, exit1_arg5 m ρ c]
  rfl

end Cert.KernelIdeal.Result

end
-- ==== Proof.lean ====
/-
  A two-layer graph convolution, its two dense products computed by row-blocked Pallas matrix kernels, against the
  plain jnp reference: the certificate's five claims.

  Both programs add a self-loop to every node, count each node's in-degree d over the edges' destinations, and weight
  edge e by  d[src e]^(-1/2) · d[dst e]^(-1/2)  (zero where a degree is zero). A layer maps a node array t to
  out[v] = b + Σ_{e : dst e = v} weight(e) · t[src e];  the network is  layer₂ (max (layer₁ (x · W1), 0) · W2).
  The kernel computes each product 2000 rows at a time, rounding the factors to bf16 on the way into the matrix
  unit and accumulating from zero in f32; the reference calls dot_general. Read at the ideal values — floats exact
  extended reals, a change of format the identity — a row block of the product is, entry by entry, the sum over the
  contracted axis, which is what dot_general is there; every other operation is the same operation on both sides. So
  the two results are one function of the six arguments, with no condition on the arguments' values: the precondition
  is not used by the value claim.

  * The three frames: the kernel's program, as printed and idealized, by its generated frame; the reference's by its
    run with the result dropped.
  * The idealization rewrote no operation of the kernel, so there is nothing to preserve.
  * The value claim: the kernel's run ends with its result buffer at the last boundary's contents (KernelRun), which
    are the reference's stage function of the arguments (KernelValue, over Rows0 and Rows1 for the two products); the
    reference's run ends with that same stage function of its own arguments, which agree with the kernel's.
-/
import proofs.«166446_j20349555048560_1_alg».proof.Defs
import proofs.«166446_j20349555048560_1_alg».proof.Proof.Gen.Kernel
import proofs.«166446_j20349555048560_1_alg».proof.Proof.Gen.Kernel.Skeleton
import proofs.«166446_j20349555048560_1_alg».proof.Proof.Gen.Kernel.Launch
import proofs.«166446_j20349555048560_1_alg».proof.Proof.Gen.Kernel.Points
import proofs.«166446_j20349555048560_1_alg».proof.Proof.Gen.Kernel.Frame
import proofs.«166446_j20349555048560_1_alg».proof.Proof.Gen.KernelIdeal
import proofs.«166446_j20349555048560_1_alg».proof.Proof.Gen.KernelIdeal.Skeleton
import proofs.«166446_j20349555048560_1_alg».proof.Proof.Gen.KernelIdeal.Launch
import proofs.«166446_j20349555048560_1_alg».proof.Proof.Gen.KernelIdeal.Points
import proofs.«166446_j20349555048560_1_alg».proof.Proof.Gen.KernelIdeal.Frame
import proofs.«166446_j20349555048560_1_alg».proof.Proof.Gen.ReferenceIdeal
import proofs.«166446_j20349555048560_1_alg».proof.Proof.Gen.Pre_finite_inputs
import proofs.«166446_j20349555048560_1_alg».proof.Proof.RefRead
import proofs.«166446_j20349555048560_1_alg».proof.Proof.KernelRun
import proofs.«166446_j20349555048560_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: it runs, and writes no argument. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the six arguments both programs end with the same result array: the reference's
    stage function of the arguments, which the kernel's last boundary holds at the result buffer. -/
theorem algebraic : Cert.algebraic_KernelIdeal_ReferenceIdeal := by
  intro m ρ m' ρ' _ hagree
  refine ⟨fun c => Cert.KernelIdeal.Gen.W8 m ρ c (Proc.devRef .tc Cert.KernelIdeal.main_v64),
    Cert.KernelIdeal.Run.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.ReadP.val_main_v64_eq, h0, h1, h2, h3, h4, h5]
  exact (Cert.KernelIdeal.Result.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
